-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8192x8192 .f32) (main_arg1 : FVec F S256x256 .f32) (main_arg2 : FVec F S256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8192x8192 : Shape := ⟨2, ![8192, 8192]⟩
abbrev S256x256 : Shape := ⟨2, ![256, 256]⟩
abbrev S256 : Shape := ⟨1, ![256]⟩
abbrev S_ : Shape := ⟨0, ![]⟩
abbrev S1x1 : Shape := ⟨2, ![1, 1]⟩
abbrev S16x16 : Shape := ⟨2, ![16, 16]⟩
abbrev S1x16x1x16 : Shape := ⟨4, ![1, 16, 1, 16]⟩
abbrev S8x16x512x16 : Shape := ⟨4, ![8, 16, 512, 16]⟩
abbrev S128x8192 : Shape := ⟨2, ![128, 8192]⟩
abbrev S8192x512 : Shape := ⟨2, ![8192, 512]⟩
abbrev S8x128 : Shape := ⟨2, ![8, 128]⟩
abbrev S512x512 : Shape := ⟨2, ![512, 512]⟩
abbrev S8x512 : Shape := ⟨2, ![8, 512]⟩
abbrev S128x512 : Shape := ⟨2, ![128, 512]⟩

abbrev nBuf : Space → Nat
  | .hbm => 57
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S16x16, .f32⟩
  | .hbm, ⟨9, _⟩ => ⟨S1x16x1x16, .f32⟩
  | .hbm, ⟨10, _⟩ => ⟨S8x16x512x16, .f32⟩
  | .hbm, ⟨11, _⟩ => ⟨S128x8192, .f32⟩
  | .hbm, ⟨12, _⟩ => ⟨S8192x512, .i32⟩
  | .hbm, ⟨13, _⟩ => ⟨S8192x512, .i32⟩
  | .hbm, ⟨14, _⟩ => ⟨S_, .i32⟩
  | .hbm, ⟨15, _⟩ => ⟨S_, .i32⟩
  | .hbm, ⟨16, _⟩ => ⟨S8192x512, .i32⟩
  | .hbm, ⟨17, _⟩ => ⟨S8192x512, .i32⟩
  | .hbm, ⟨18, _⟩ => ⟨S8192x512, .i32⟩
  | .hbm, ⟨19, _⟩ => ⟨S_, .i32⟩
  | .hbm, ⟨20, _⟩ => ⟨S8192x512, .i32⟩
  | .hbm, ⟨21, _⟩ => ⟨S8192x512, .i1⟩
  | .hbm, ⟨22, _⟩ => ⟨S8192x512, .i32⟩
  | .hbm, ⟨23, _⟩ => ⟨S8192x512, .i32⟩
  | .hbm, ⟨24, _⟩ => ⟨S_, .i32⟩
  | .hbm, ⟨25, _⟩ => ⟨S8192x512, .i32⟩
  | .hbm, ⟨26, _⟩ => ⟨S8192x512, .i1⟩
  | .hbm, ⟨27, _⟩ => ⟨S8192x512, .i1⟩
  | .hbm, ⟨28, _⟩ => ⟨S_, .i32⟩
  | .hbm, ⟨29, _⟩ => ⟨S8192x512, .i32⟩
  | .hbm, ⟨30, _⟩ => ⟨S8192x512, .i32⟩
  | .hbm, ⟨31, _⟩ => ⟨S8192x512, .i32⟩
  | .hbm, ⟨32, _⟩ => ⟨S8192x512, .i1⟩
  | .hbm, ⟨33, _⟩ => ⟨S8192x512, .bf16⟩
  | .hbm, ⟨34, _⟩ => ⟨S8x128, .i32⟩
  | .hbm, ⟨35, _⟩ => ⟨S8x128, .i32⟩
  | .hbm, ⟨36, _⟩ => ⟨S_, .i32⟩
  | .hbm, ⟨37, _⟩ => ⟨S_, .i32⟩
  | .hbm, ⟨38, _⟩ => ⟨S8x128, .i32⟩
  | .hbm, ⟨39, _⟩ => ⟨S8x128, .i32⟩
  | .hbm, ⟨40, _⟩ => ⟨S8x128, .i32⟩
  | .hbm, ⟨41, _⟩ => ⟨S_, .i32⟩
  | .hbm, ⟨42, _⟩ => ⟨S8x128, .i32⟩
  | .hbm, ⟨43, _⟩ => ⟨S8x128, .i1⟩
  | .hbm, ⟨44, _⟩ => ⟨S8x128, .i32⟩
  | .hbm, ⟨45, _⟩ => ⟨S8x128, .i32⟩
  | .hbm, ⟨46, _⟩ => ⟨S_, .i32⟩
  | .hbm, ⟨47, _⟩ => ⟨S8x128, .i32⟩
  | .hbm, ⟨48, _⟩ => ⟨S8x128, .i1⟩
  | .hbm, ⟨49, _⟩ => ⟨S8x128, .i1⟩
  | .hbm, ⟨50, _⟩ => ⟨S_, .i32⟩
  | .hbm, ⟨51, _⟩ => ⟨S8x128, .i32⟩
  | .hbm, ⟨52, _⟩ => ⟨S8x128, .i32⟩
  | .hbm, ⟨53, _⟩ => ⟨S8x128, .i32⟩
  | .hbm, ⟨54, _⟩ => ⟨S8x128, .i1⟩
  | .hbm, ⟨55, _⟩ => ⟨S8x128, .bf16⟩
  | .hbm, ⟨56, _⟩ => ⟨S512x512, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S8192x512, .bf16⟩
  | .local _ .vmem, ⟨4, _⟩ => ⟨S8x128, .bf16⟩
  | .local _ .vmem, ⟨5, _⟩ => ⟨S1x1, .f32⟩
  | .local _ .vmem, ⟨6, _⟩ => ⟨S8x512, .f32⟩
  | .local _ .vmem, ⟨7, _⟩ => ⟨S8x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S256x256_S256_d0 : S256x256.ReducesTo [0] S256
  h_S_ : 0 < S_.numel
  reducesTo_S256_S_d0 : S256.ReducesTo [0] S_
  shapeCasts_S_S1x1 : S_.ShapeCasts S1x1
  shapeCasts_S256_S16x16 : S256.ShapeCasts S16x16
  shapeCasts_S16x16_S1x16x1x16 : S16x16.ShapeCasts S1x16x1x16
  bcast_S1x16x1x16_S8x16x512x16_0_1_2_3 : S1x16x1x16.BroadcastsInDim S8x16x512x16 (![0, 1, 2, 3] : Fin 4 → Fin S8x16x512x16.rank)
  shapeCasts_S8x16x512x16_S128x8192 : S8x16x512x16.ShapeCasts S128x8192
  bcast_S_S8192x512 : S_.BroadcastsInDim S8192x512 (![] : Fin 0 → Fin S8192x512.rank)
  bcast_S_S8x128 : S_.BroadcastsInDim S8x128 (![] : Fin 0 → Fin S8x128.rank)
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  bitsLt_bf16_f32 : FTy.bits .bf16 < FTy.bits .f32
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x512 : S1x1.Broadcasts S8x512
  inb_S8x512_S8x512_0_0 : ∀ a, (![0, 0] : Fin 2 → Nat) a + S8x512.size a ≤ S8x512.size a
  h_S8x512 : 0 < S8x512.numel
  dot_S128x8192_S8192x512_S128x512_1_0_0_1_n_n_wf : DotDims.WF S128x8192 S8192x512 S128x512 [1] [0] [0] [1] [] []
  dot_S8x128_S128x512_S8x512_1_0_0_1_n_n_wf : DotDims.WF S8x128 S128x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .f32 = 32 ∨ (Rect.block (s := S128x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S8192x512.size a
  hwx0_2 : ∀ i : grid0.Coords, EltTy.bits .bf16 = 32 ∨ (Rect.block (s := S8192x512) S8192x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .bf16 = 32 ∨ (Rect.block (s := S8x128) S8x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S512x512.size a
  hwx0_5 : ∀ i : grid0.Coords, EltTy.bits .f32 = 32 ∨ (Rect.block (s := S512x512) S8x512.size (cc0_transform_5 i) (hinb0_5 i)).WholeWords (EltTy.packing .f32)

variable [Facts₀]

def dot_S128x8192_S8192x512_S128x512_1_0_0_1_n_n : DotDims S128x8192 S8192x512 S128x512 where
  lhsContracting := [1]
  rhsContracting := [0]
  lhsNonContracting := [0]
  rhsNonContracting := [1]
  lhsBatch := []
  rhsBatch := []
  wf := dot_S128x8192_S8192x512_S128x512_1_0_0_1_n_n_wf
def dot_S8x128_S128x512_S8x512_1_0_0_1_n_n : DotDims S8x128 S128x512 S8x512 where
  lhsContracting := [1]
  rhsContracting := [0]
  lhsNonContracting := [0]
  rhsNonContracting := [1]
  lhsBatch := []
  rhsBatch := []
  wf := dot_S8x128_S128x512_S8x512_1_0_0_1_n_n_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8192x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S256x256 : Shape := ⟨2, ![256, 256]⟩
abbrev S256 : Shape := ⟨1, ![256]⟩
abbrev S512x16x512x16 : Shape := ⟨4, ![512, 16, 512, 16]⟩
abbrev S512x512x16x16 : Shape := ⟨4, ![512, 512, 16, 16]⟩
abbrev S262144x256 : Shape := ⟨2, ![262144, 256]⟩
abbrev S1x256 : Shape := ⟨2, ![1, 256]⟩
abbrev S_ : Shape := ⟨0, ![]⟩
abbrev S262144 : Shape := ⟨1, ![262144]⟩
abbrev S512x512 : Shape := ⟨2, ![512, 512]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S256x256, .f32⟩
  | .hbm, ⟨2, _⟩ => ⟨S256, .f32⟩
  | .hbm, ⟨3, _⟩ => ⟨S512x16x512x16, .f32⟩
  | .hbm, ⟨4, _⟩ => ⟨S512x512x16x16, .f32⟩
  | .hbm, ⟨5, _⟩ => ⟨S262144x256, .f32⟩
  | .hbm, ⟨6, _⟩ => ⟨S256x256, .f32⟩
  | .hbm, ⟨7, _⟩ => ⟨S262144x256, .f32⟩
  | .hbm, ⟨8, _⟩ => ⟨S1x256, .f32⟩
  | .hbm, ⟨9, _⟩ => ⟨S262144x256, .f32⟩
  | .hbm, ⟨10, _⟩ => ⟨S262144x256, .f32⟩
  | .hbm, ⟨11, _⟩ => ⟨S_, .f32⟩
  | .hbm, ⟨12, _⟩ => ⟨S262144, .f32⟩
  | .hbm, ⟨13, _⟩ => ⟨S512x512, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8192x8192_S512x16x512x16 : S8192x8192.ShapeCasts S512x16x512x16
  transposes_S512x16x512x16_S512x512x16x16_0_2_1_3 : S512x16x512x16.Transposes [0, 2, 1, 3] S512x512x16x16
  shapeCasts_S512x512x16x16_S262144x256 : S512x512x16x16.ShapeCasts S262144x256
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S262144_d1 : S262144x256.ReducesTo [1] S262144
  h_S_ : 0 < S_.numel
  shapeCasts_S262144_S512x512 : S262144.ShapeCasts S512x512
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.LibFloorDiv.lean ====
/-
  The floor division of a nonnegative 32-bit word by a positive constant, as a host program spells it: the
  quotient rounded toward zero, less one exactly when the operands' signs differ and the remainder is not zero.
  For a nonnegative dividend and a positive divisor the correction never fires and the result is the word of the
  natural quotient. Also: a word compared for equality with another, turned into a float, is one or zero.
-/
import Idealize.ShloMosaic.Lib.Affine
import Idealize.ShloMosaic.PureOps.Ideal

noncomputable section

namespace Idealize.ShloMosaic.FloorDivRead

open Idealize.ShloMosaic

/-- The sign of a word read as a two's-complement integer: zero, minus one or one. -/
def sgn (x : BitVec 32) : BitVec 32 := if x = 0 then 0 else if x.msb then -1 else 1

/-- A natural number below 2³¹, as a word, has that natural value, a clear top bit and a positive signed value
    when it is positive. -/
theorem ofNat_facts (k : ℕ) (hk : 0 < k) (hk' : 2 * k < 2 ^ 32) :
    (BitVec.ofNat 32 k).toNat = k ∧ (BitVec.ofNat 32 k).msb = false ∧ 0 < (BitVec.ofNat 32 k).toInt := by
  have hkN : (BitVec.ofNat 32 k).toNat = k := by rw [BitVec.toNat_ofNat]; omega
  refine ⟨hkN, ?_, ?_⟩
  · rw [BitVec.msb_eq_false_iff_two_mul_lt]; omega
  · rw [BitVec.toInt_eq_toNat_of_lt (by omega)]; omega

/-- The signed quotient of a nonnegative word by a positive constant is the word of the natural quotient. -/
theorem divsi_of_nonneg (u : ArithUnit) {x : BitVec 32} (hx : 2 * x.toNat < 2 ^ 32) (k : ℕ) (hk : 0 < k)
    (hk' : 2 * k < 2 ^ 32) : IntOp.divsi u x (BitVec.ofNat 32 k) = BitVec.ofNat 32 (x.toNat / k) := by
  obtain ⟨hkN, hkm, hpos⟩ := ofNat_facts k hk hk'
  have hm : x.msb = false := by rw [BitVec.msb_eq_false_iff_two_mul_lt]; exact hx
  unfold IntOp.divsi
  rw [if_neg (IntOp.not_corner_of_pos hpos), BitVec.sdiv_eq, hm, hkm]
  show x / BitVec.ofNat 32 k = _
  rw [BitVec.udiv_def, hkN]

/-- The sign of a positive constant below 2³¹ is one. -/
theorem sgn_ofNat (k : ℕ) (hk : 0 < k) (hk' : 2 * k < 2 ^ 32) : sgn (BitVec.ofNat 32 k) = 1 := by
  obtain ⟨hkN, hkm, -⟩ := ofNat_facts k hk hk'
  unfold sgn
  rw [if_neg (fun h => by rw [h] at hkN; exact absurd hkN (by simpa using hk.ne)), hkm]
  rfl

/-- The sign of a nonnegative word is one unless the word is zero. -/
theorem sgn_of_nonneg {x : BitVec 32} (hx : 2 * x.toNat < 2 ^ 32) (h0 : x ≠ 0) : sgn x = 1 := by
  have hm : x.msb = false := by rw [BitVec.msb_eq_false_iff_two_mul_lt]; exact hx
  unfold sgn
  rw [if_neg h0, hm]
  rfl

/-- THE FLOOR DIVISION of a nonnegative word by a positive constant: the correction's condition (signs differ and the
    remainder is not zero) is never met, so the result is the word of the natural quotient. -/
theorem floorDiv_of_nonneg (u : ArithUnit) {x : BitVec 32} (hx : 2 * x.toNat < 2 ^ 32) (k : ℕ) (hk : 0 < k)
    (hk' : 2 * k < 2 ^ 32) :
    Scalar.select (IntOp.andi (IntOp.cmpi .ne (sgn x) (sgn (BitVec.ofNat 32 k)))
        (IntOp.cmpi .ne (IntOp.remsi u x (BitVec.ofNat 32 k)) 0#32))
      (IntOp.subi (IntOp.divsi u x (BitVec.ofNat 32 k)) 1#32) (IntOp.divsi u x (BitVec.ofNat 32 k))
      = BitVec.ofNat 32 (x.toNat / k) := by
  rw [← divsi_of_nonneg u hx k hk hk']
  unfold Scalar.select
  refine if_neg fun h => ?_
  obtain ⟨hs, hr⟩ := IntOp.andi_eq_one.mp h
  rw [IntOp.cmpi_ne, sgn_ofNat k hk hk'] at hs
  have hx0 : x = 0 := by
    by_contra h0
    exact hs (sgn_of_nonneg hx h0)
  rw [IntOp.cmpi_ne] at hr
  refine hr ((IntOp.remsi_eq_zero_iff u hx k hk hk').mpr ?_)
  rw [hx0]
  exact dvd_zero k

/-- Two natural numbers below 2³², as words, are equal exactly when they are equal. -/
theorem ofNat_eq_iff {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- The bit of an equality test, converted unsigned to a float at the exact instance, is one or zero. -/
theorem uitofp_cmpi_eq (φ : FTy) (x y : BitVec 32) :
    (FloatOps.uitofp (F := Ideal) φ (IntOp.cmpi .eq x y) : EReal) = if x = y then 1 else 0 := by
  by_cases h : x = y
  · rw [if_pos h, IntOp.cmpi_eq.mpr h]
    show (((1#1 : BitVec 1).toNat : ℝ) : EReal) = 1
    simp
  · rw [if_neg h]
    have h0 : IntOp.cmpi .eq x y = 0#1 := by
      have : ¬ IntOp.cmpi .eq x y = 1#1 := fun e => h (IntOp.cmpi_eq.mp e)
      revert this; generalize IntOp.cmpi .eq x y = b; revert b; decide
    rw [h0]
    show (((0#1 : BitVec 1).toNat : ℝ) : EReal) = 0
    simp

end Idealize.ShloMosaic.FloorDivRead

end
-- ==== Proof.LibGroupSum.lean ====
/-
  Sums over a range cut into equal consecutive groups, and a product moved across a finite sum of real numbers
  inside the extended reals.
  * A sum over N = n·g positions is the sum over the n groups of the sums inside each group.
  * Weighted by the indicator of one group (the weight is 1 inside group p and 0 elsewhere) the sum over all
    positions is the sum over group p alone; on the extended reals this uses only 1·z = z and 0·z = 0.
  * a · ∑ b = ∑ a · b when a and every b are real: the extended reals are not distributive at the infinities,
    so this is where finiteness enters; and with it a double sum of products is summed in either order.
-/
import Mathlib.Algebra.BigOperators.Fin
import Mathlib.Logic.Equiv.Fin.Basic
import Mathlib.Data.EReal.Operations

noncomputable section

namespace Idealize.ShloMosaic.GroupSum

open scoped BigOperators

/-- Position h of group a lies in the range. -/
theorem lt_of_group {N n g : ℕ} (hN : N = n * g) (a : Fin n) (h : Fin g) : a.val * g + h.val < N := by
  subst hN
  calc a.val * g + h.val < a.val * g + g := Nat.add_lt_add_left h.isLt _
    _ = (a.val + 1) * g := (Nat.succ_mul _ _).symm
    _ ≤ n * g := Nat.mul_le_mul_right g a.isLt

/-- Position h of group a. -/
def pos {N : ℕ} (n g : ℕ) (hN : N = n * g) (a : Fin n) (h : Fin g) : Fin N := ⟨a.val * g + h.val, lt_of_group hN a h⟩

theorem pos_val {N : ℕ} (n g : ℕ) (hN : N = n * g) (a : Fin n) (h : Fin g) : (pos n g hN a h).val = a.val * g + h.val := rfl

theorem pos_div {N : ℕ} (n g : ℕ) (hN : N = n * g) (a : Fin n) (h : Fin g) : (pos n g hN a h).val / g = a.val := by
  have hg : 0 < g := Nat.pos_of_ne_zero fun e => by subst e; exact absurd h.isLt (Nat.not_lt_zero _)
  rw [pos_val, Nat.mul_comm, Nat.mul_add_div hg, Nat.div_eq_of_lt h.isLt, Nat.add_zero]

theorem pos_mod {N : ℕ} (n g : ℕ) (hN : N = n * g) (a : Fin n) (h : Fin g) : (pos n g hN a h).val % g = h.val := by
  rw [pos_val, Nat.mul_comm, Nat.mul_add_mod, Nat.mod_eq_of_lt h.isLt]

/-- A sum over N = n·g positions, group by group. -/
theorem sum_eq_sum_groups {M : Type*} [AddCommMonoid M] {N : ℕ} (n g : ℕ) (hN : N = n * g) (f : Fin N → M) :
    ∑ r : Fin N, f r = ∑ a : Fin n, ∑ h : Fin g, f (pos n g hN a h) := by
  subst hN
  rw [← Equiv.sum_comp finProdFinEquiv f, Fintype.sum_prod_type]
  refine Finset.sum_congr rfl fun a _ => Finset.sum_congr rfl fun h _ => congrArg f (Fin.ext ?_)
  show h.val + g * a.val = a.val * g + h.val
  rw [Nat.mul_comm, Nat.add_comm]

/-- The indicator of group p as a weight on the left: only group p's positions are summed. -/
theorem sum_indicator_mul {N : ℕ} (n g : ℕ) (hN : N = n * g) (p : Fin n) (z : Fin N → EReal) :
    ∑ r : Fin N, (if r.val / g = p.val then (1 : EReal) else 0) * z r = ∑ h : Fin g, z (pos n g hN p h) := by
  rw [sum_eq_sum_groups n g hN]
  have key : ∀ a : Fin n, (∑ h : Fin g, (if (pos n g hN a h).val / g = p.val then (1 : EReal) else 0) * z (pos n g hN a h))
      = if a = p then ∑ h : Fin g, z (pos n g hN p h) else 0 := by
    intro a
    by_cases hap : a = p
    · subst hap
      rw [if_pos rfl]
      exact Finset.sum_congr rfl fun h _ => by rw [if_pos (pos_div n g hN a h), one_mul]
    · rw [if_neg hap]
      exact Finset.sum_eq_zero fun h _ => by
        rw [if_neg (fun e => hap (Fin.ext ((pos_div n g hN a h).symm.trans e))), zero_mul]
  rw [Finset.sum_congr rfl fun a _ => key a, Finset.sum_ite_eq' Finset.univ p, if_pos (Finset.mem_univ p)]

/-- The same with the weight on the right. -/
theorem sum_mul_indicator {N : ℕ} (n g : ℕ) (hN : N = n * g) (p : Fin n) (z : Fin N → EReal) :
    ∑ r : Fin N, z r * (if r.val / g = p.val then (1 : EReal) else 0) = ∑ h : Fin g, z (pos n g hN p h) := by
  rw [← sum_indicator_mul n g hN p z]
  exact Finset.sum_congr rfl fun r _ => EReal.mul_comm (z r) (if r.val / g = p.val then (1 : EReal) else 0)

/-- The inclusion of the reals in the extended reals carries a finite sum to the sum. -/
theorem coe_sum {J : Type*} (s : Finset J) (y : J → ℝ) : ((∑ j ∈ s, y j : ℝ) : EReal) = ∑ j ∈ s, (y j : EReal) := by
  classical
  induction s using Finset.induction_on with
  | empty => simp
  | insert a s ha ih => rw [Finset.sum_insert ha, Finset.sum_insert ha, EReal.coe_add, ih]

/-- A real factor distributes over a finite sum of reals, inside the extended reals. -/
theorem coe_mul_sum {J : Type*} (s : Finset J) (x : ℝ) (y : J → ℝ) :
    (x : EReal) * ∑ j ∈ s, (y j : EReal) = ∑ j ∈ s, (x : EReal) * (y j : EReal) := by
  rw [← coe_sum, ← EReal.coe_mul, Finset.mul_sum, coe_sum]
  exact Finset.sum_congr rfl fun j _ => EReal.coe_mul x (y j)

/-- a · ∑ b = ∑ a · b for finite a and finite terms b. -/
theorem mul_sum_of_finite {J : Type*} (s : Finset J) (a : EReal) (b : J → EReal) (ha : a ≠ ⊤ ∧ a ≠ ⊥)
    (hb : ∀ j, b j ≠ ⊤ ∧ b j ≠ ⊥) : a * ∑ j ∈ s, b j = ∑ j ∈ s, a * b j := by
  lift a to ℝ using ha
  lift b to J → ℝ using hb
  exact coe_mul_sum s a b

/-- With every entry finite, ∑ₖ dₖ · (∑ⱼ wⱼₖ) = ∑ⱼ ∑ₖ dₖ · wⱼₖ. -/
theorem sum_mul_sum_comm_of_finite {J K : Type*} [Fintype J] [Fintype K] (d : K → EReal) (w : J → K → EReal)
    (hd : ∀ k, d k ≠ ⊤ ∧ d k ≠ ⊥) (hw : ∀ j k, w j k ≠ ⊤ ∧ w j k ≠ ⊥) :
    ∑ k, d k * ∑ j, w j k = ∑ j, ∑ k, d k * w j k := by
  rw [Finset.sum_comm]
  exact Finset.sum_congr rfl fun k _ => mul_sum_of_finite Finset.univ (d k) (fun j => w j k) (hd k) fun j => hw j k

/-- THE LAW that joins a weighted sum-pool to a linear layer summed over its outputs: for finite entries,
    ∑_{a,h} d(a·g+h) · (∑ⱼ wⱼ(a·g+h)) + ∑ⱼ βⱼ = ∑ⱼ ((∑ₖ dₖ · wⱼₖ) + βⱼ), the positions k = a·g + h of a range of
    n·g taken group by group on the left. -/
theorem pooled_eq_linear_sum {J : Type*} [Fintype J] {N : ℕ} (n g : ℕ) (hN : N = n * g) (d : Fin N → EReal)
    (w : J → Fin N → EReal) (β : J → EReal) (hd : ∀ k, d k ≠ ⊤ ∧ d k ≠ ⊥) (hw : ∀ j k, w j k ≠ ⊤ ∧ w j k ≠ ⊥) :
    (∑ a : Fin n, ∑ h : Fin g, d (pos n g hN a h) * ∑ j, w j (pos n g hN a h)) + ∑ j, β j
      = ∑ j, ((∑ k, d k * w j k) + β j) := by
  rw [Finset.sum_add_distrib, ← sum_mul_sum_comm_of_finite d w hd hw, sum_eq_sum_groups n g hN fun k => d k * ∑ j, w j k]

end Idealize.ShloMosaic.GroupSum

end
-- ==== Proof.Spec.lean ====
/-
  The mathematics of the claim, with no program in sight.

  An 8192×8192 image is cut into 512×512 non-overlapping 16×16 patches. A patch at (a, b) has entries
  d(16a + kh, 16b + kw); flattened row-major it is the vector x with x(16·kh + kw) = d(16a + kh, 16b + kw). A linear
  layer with weight W (256×256, output-major) and bias β sends it to y_j = ∑ₖ xₖ·W(j,k) + β_j, and the result at
  (a, b) is ∑ⱼ y_j: this is `linearSum`.

  Summing over the outputs first, ∑ⱼ y_j = ∑ₖ xₖ·(∑ⱼ W(j,k)) + ∑ⱼ β_j: a sum-pool of the patch weighted by the
  column sums of W, plus the sum of the bias: this is `pooled`. The two agree when the image and the weight are
  finite (the step xₖ·∑ⱼ W(j,k) = ∑ⱼ xₖ·W(j,k) is distributivity, which the extended reals lack at ±∞); the bias
  may be anything.
-/
import Idealize.ShloMosaic.PureOps.Ideal
import Idealize.ShloMosaic.Lib.ValueIdx
import proofs.«176076_j2439541424746_2_alg».proof.Proof.LibGroupSum

noncomputable section

namespace Cert.PatchSum

open Idealize.ShloMosaic Idealize.ShloMosaic.ValueIdx Idealize.ShloMosaic.GroupSum
open scoped BigOperators

/-- Every entry is a real number. -/
def Finite {ι : Type} (x : ι → EReal) : Prop := ∀ i, x i ≠ ⊤ ∧ x i ≠ ⊥

/-- Row (or column) 16a + h of the image: position h of patch-row (patch-column) a. -/
abbrev line (a : Fin 512) (h : Fin 16) : Fin 8192 := pos 512 16 (by decide) a h

/-- Flat position 16·kh + kw inside a patch. -/
abbrev flat (kh kw : Fin 16) : Fin 256 := pos 16 16 (by decide) kh kw

/-- The row and the column inside the patch of flat position k. -/
abbrev rowOf (k : Fin 256) : Fin 16 := ⟨k.val / 16, by have := k.isLt; omega⟩
abbrev colOf (k : Fin 256) : Fin 16 := ⟨k.val % 16, by omega⟩

theorem rowOf_flat (kh kw : Fin 16) : rowOf (flat kh kw) = kh := Fin.ext (pos_div 16 16 (by decide) kh kw)
theorem colOf_flat (kh kw : Fin 16) : colOf (flat kh kw) = kw := Fin.ext (pos_mod 16 16 (by decide) kh kw)

/-- Column k of the weight summed over the outputs. -/
def wsum (w : (⟨2, ![256, 256]⟩ : Shape).Idx → EReal) (k : Fin 256) : EReal := ∑ j : Fin 256, w (ix2 j k)

/-- The bias summed over the outputs. -/
def bsum (β : (⟨1, ![256]⟩ : Shape).Idx → EReal) : EReal := ∑ j : Fin 256, β (ix1 j)

/-- The weighted sum-pool: at patch (a, b), ∑_{kh,kw} d(16a+kh, 16b+kw) · wsum(16kh+kw) + bsum. -/
def pooled (d : (⟨2, ![8192, 8192]⟩ : Shape).Idx → EReal) (w : (⟨2, ![256, 256]⟩ : Shape).Idx → EReal)
    (β : (⟨1, ![256]⟩ : Shape).Idx → EReal) : (⟨2, ![512, 512]⟩ : Shape).Idx → EReal := fun i =>
  (∑ kh : Fin 16, ∑ kw : Fin 16, d (ix2 (line (i 0) kh) (line (i 1) kw)) * wsum w (flat kh kw)) + bsum β

/-- The linear layer on each flattened patch, summed over its outputs: at patch (a, b),
    ∑ⱼ ((∑ₖ d(16a + k/16, 16b + k%16) · W(j,k)) + β_j). -/
def linearSum (d : (⟨2, ![8192, 8192]⟩ : Shape).Idx → EReal) (w : (⟨2, ![256, 256]⟩ : Shape).Idx → EReal)
    (β : (⟨1, ![256]⟩ : Shape).Idx → EReal) : (⟨2, ![512, 512]⟩ : Shape).Idx → EReal := fun i =>
  ∑ j : Fin 256, ((∑ k : Fin 256, d (ix2 (line (i 0) (rowOf k)) (line (i 1) (colOf k))) * w (ix2 j k)) + β (ix1 j))

/-- The two are one function when the image and the weight are finite. -/
theorem pooled_eq_linearSum (d : (⟨2, ![8192, 8192]⟩ : Shape).Idx → EReal) (w : (⟨2, ![256, 256]⟩ : Shape).Idx → EReal)
    (β : (⟨1, ![256]⟩ : Shape).Idx → EReal) (hd : Finite d) (hw : Finite w) : pooled d w β = linearSum d w β := by
  funext i
  unfold pooled linearSum
  refine Eq.trans ?_ (pooled_eq_linear_sum 16 16 (by decide)
    (fun k : Fin 256 => d (ix2 (line (i 0) (rowOf k)) (line (i 1) (colOf k)))) (fun j k => w (ix2 j k)) (fun j => β (ix1 j))
    (fun k => hd _) (fun j k => hw _))
  refine congrArg (· + bsum β) (Finset.sum_congr rfl fun kh _ => Finset.sum_congr rfl fun kw _ => ?_)
  show d (ix2 (line (i 0) kh) (line (i 1) kw)) * wsum w (flat kh kw)
    = d (ix2 (line (i 0) (rowOf (flat kh kw))) (line (i 1) (colOf (flat kh kw)))) * ∑ j : Fin 256, w (ix2 j (flat kh kw))
  rw [rowOf_flat, colOf_flat]
  rfl

end Cert.PatchSum

end
-- ==== Proof.PoolBlock.lean ====
/-
  One entry of one output block, as the kernel's two selector products compute it, is `pooled` at that entry.

  Grid step t holds image rows 128t … 128t+127 (eight patch-rows). Entry (p, q) of its 8×512 result is
      ∑_r L(p,r) · ( ∑_c (X(r,c) · Wt(r,c)) · G(c,q) ) + bs
  with L(p,r) = [r/16 = p] picking the sixteen rows of patch-row p, G(c,q) = [c/16 = q] the sixteen columns of
  patch-column q, Wt(r,c) = wsum(16·(r%16) + c%16) the column sums of the weight laid out periodically, and bs the
  summed bias. The indicators reduce each sum to the sixteen positions of its group (0·z = 0 and 1·z = z hold on all
  extended reals), leaving ∑_{kh,kw} d(16(8t+p)+kh, 16q+kw) · wsum(16kh+kw) + bsum: `pooled` at (8t+p, q).
-/
import proofs.«176076_j2439541424746_2_alg».proof.Proof.Spec

noncomputable section

namespace Cert.PatchSum

open Idealize.ShloMosaic Idealize.ShloMosaic.ValueIdx Idealize.ShloMosaic.GroupSum
open scoped BigOperators

/-- Image row 128t + r, the r-th row of step t's block. -/
abbrev stepRow (t : Fin 64) (r : Fin 128) : Fin 8192 := ⟨128 * t.val + r.val, by have := t.isLt; have := r.isLt; omega⟩

/-- Patch-row 8t + p, the p-th of step t's eight. -/
abbrev stepPatch (t : Fin 64) (p : Fin 8) : Fin 512 := ⟨8 * t.val + p.val, by have := t.isLt; have := p.isLt; omega⟩

/-- The position in a flattened patch that row r and column c of the image fall on: 16·(r%16) + c%16. -/
abbrev tilePos (r : Fin 128) (c : Fin 8192) : Fin 256 := ⟨(r.val % 16) * 16 + c.val % 16, by omega⟩

theorem block_entry (d : (⟨2, ![8192, 8192]⟩ : Shape).Idx → EReal) (w : (⟨2, ![256, 256]⟩ : Shape).Idx → EReal)
    (β : (⟨1, ![256]⟩ : Shape).Idx → EReal) (t : Fin 64) (p : Fin 8) (q : Fin 512)
    (X Wt : Fin 128 → Fin 8192 → EReal) (L : Fin 128 → EReal) (G : Fin 8192 → EReal) (bs : EReal)
    (hX : ∀ r c, X r c = d (ix2 (stepRow t r) c))
    (hWt : ∀ r c, Wt r c = wsum w (tilePos r c))
    (hL : ∀ r : Fin 128, L r = if r.val / 16 = p.val then 1 else 0)
    (hG : ∀ c : Fin 8192, G c = if c.val / 16 = q.val then 1 else 0)
    (hb : bs = bsum β) :
    (∑ r, L r * ∑ c, (X r c * Wt r c) * G c) + bs = pooled d w β (ix2 (stepPatch t p) q) := by
  subst hb
  unfold pooled
  refine congrArg (· + bsum β) ?_
  simp only [hL, hG]
  rw [sum_indicator_mul 8 16 (by decide) p]
  refine Finset.sum_congr rfl fun kh _ => ?_
  rw [sum_mul_indicator 512 16 (by decide) q]
  refine Finset.sum_congr rfl fun kw _ => ?_
  rw [hX, hWt]
  have hkh : kh.val < 16 := kh.isLt
  have hkw : kw.val < 16 := kw.isLt
  have e1 : stepRow t (pos 8 16 (by decide) p kh) = line (stepPatch t p) kh :=
    Fin.ext (by show 128 * t.val + (p.val * 16 + kh.val) = (8 * t.val + p.val) * 16 + kh.val; omega)
  have e2 : tilePos (pos 8 16 (by decide) p kh) (pos 512 16 (by decide) q kw) = flat kh kw :=
    Fin.ext (by show ((p.val * 16 + kh.val) % 16) * 16 + (q.val * 16 + kw.val) % 16 = kh.val * 16 + kw.val; omega)
  rw [e1, e2]

end Cert.PatchSum

end
-- ==== Proof.HostArrays.lean ====
/-
  The four arrays the host prepares before the grid runs, read at an entry.
  * the two selectors: an iota along one axis floor-divided by 16, compared for equality with the iota along the
    other axis, the bit turned into a float: entry (c, q) of the column selector is 1 when c/16 = q and 0 otherwise,
    entry (p, r) of the row selector is 1 when r/16 = p and 0 otherwise;
  * the weight tile: the weight summed over its first axis from zero (its column sums, 256 of them), laid out as a
    16×16 pattern and repeated 8 times down and 512 times across: entry (r, c) is column sum 16·(r%16) + c%16;
  * the summed bias, as a 1×1 array.
-/
import proofs.«176076_j2439541424746_2_alg».proof.Proof.Gen.KernelIdeal.Frame
import proofs.«176076_j2439541424746_2_alg».proof.Proof.LibFloorDiv
import proofs.«176076_j2439541424746_2_alg».proof.Proof.PoolBlock
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Idealize.ShloMosaic.FloorDivRead Cert.PatchSum
open scoped BigOperators

variable (m : (ℓ : Loc nD τ sig) → Buf (Elt Ideal) ℓ)

/-! ## The selectors -/

/-- A selector's entry from the two coordinates as words: the bit of "x floor-divided by 16 equals y", as a float. -/
def selWord (x y : BitVec 32) : EReal :=
  FloatOps.uitofp (F := Ideal) .bf16 (IntOp.cmpi .eq
    (Scalar.select (IntOp.andi (IntOp.cmpi .ne (sgn x) (sgn 16#32)) (IntOp.cmpi .ne (IntOp.remsi .host x 16#32) 0#32))
      (IntOp.subi (IntOp.divsi .host x 16#32) 1#32) (IntOp.divsi .host x 16#32)) y)

/-- On coordinates (natural numbers well below 2³¹) it is the indicator of r/16 = p. -/
theorem selWord_ofNat (r p : ℕ) (hr : r < 2 ^ 31) (hp : p < 2 ^ 32) :
    selWord (BitVec.ofNat 32 r) (BitVec.ofNat 32 p) = if r / 16 = p then 1 else 0 := by
  have hN : (BitVec.ofNat 32 r).toNat = r := by rw [BitVec.toNat_ofNat]; omega
  have hx : 2 * (BitVec.ofNat 32 r).toNat < 2 ^ 32 := by rw [hN]; omega
  unfold selWord
  rw [floorDiv_of_nonneg .host hx 16 (by decide) (by decide), uitofp_cmpi_eq, hN]
  exact if_congr (ofNat_eq_iff (by omega) hp) rfl rfl

set_option maxHeartbeats 2000000 in
/-- The row selector as the grid finds it. -/
theorem rowSel_eq (c : Dev nD) :
    (V m c main_v16 : S8x128.Idx → EReal) = fun i => selWord (BitVec.ofNat 32 (i 1).val) (BitVec.ofNat 32 (i 0).val) := by
  dsimp only [V]
  simp only [hostOps0, hostOps0_1, hostOps0_2, hostOps0_3, hostOps0_4, List.flatten_cons, List.flatten_nil, List.append_nil, List.cons_append, List.nil_append]
  after_results_simp
  funext i
  simp only [TRef.toBuf, TRef.ofBuf, cast_eq]
  unfold selWord sgn
  rfl

set_option maxHeartbeats 2000000 in
/-- The column selector as the grid finds it. -/
theorem colSel_eq (c : Dev nD) :
    (V m c main_v11 : S8192x512.Idx → EReal) = fun i => selWord (BitVec.ofNat 32 (i 0).val) (BitVec.ofNat 32 (i 1).val) := by
  dsimp only [V]
  simp only [hostOps0, hostOps0_1, hostOps0_2, hostOps0_3, hostOps0_4, List.flatten_cons, List.flatten_nil, List.append_nil, List.cons_append, List.nil_append]
  after_results_simp
  funext i
  simp only [TRef.toBuf, TRef.ofBuf, cast_eq]
  unfold selWord sgn
  rfl

/-- Entry (p, r) of the row selector: 1 on the sixteen rows of patch-row p. -/
theorem rowSel_apply (c : Dev nD) (p : Fin 8) (r : Fin 128) :
    ((V m c main_v16 : S8x128.Idx → EReal) (ix2 p r) : EReal) = if r.val / 16 = p.val then (1 : EReal) else 0 := by
  rw [rowSel_eq]
  exact selWord_ofNat r.val p.val (by have := r.isLt; omega) (by have := p.isLt; omega)

/-- Entry (c, q) of the column selector: 1 on the sixteen columns of patch-column q. -/
theorem colSel_apply (c : Dev nD) (cc : Fin 8192) (q : Fin 512) :
    ((V m c main_v11 : S8192x512.Idx → EReal) (ix2 cc q) : EReal) = if cc.val / 16 = q.val then (1 : EReal) else 0 := by
  rw [colSel_eq]
  exact selWord_ofNat cc.val q.val (by have := cc.isLt; omega) (by have := q.isLt; omega)

/-! ## The weight's column sums, tiled; the summed bias -/

/-- The host's sum of the weight over its first axis from zero, at column k, is `wsum`. -/
theorem colSums_apply (x : S256x256.Idx → EReal) (k : Fin 256) :
    Host.reduceAdd (F := Ideal) (φ := .f32) x (constant S_ .f32 0x00000000#32) reducesTo_S256x256_S256_d0 h_S_ (ix1 k) = wsum x k := by
  simp only [Host.reduceAdd, Ideal.hostReduceAdd_def]
  rw [Ideal.hostReduceAdd_single reducesTo_S256x256_S256_d0 (by decide)]
  show Ideal.ofBits .f32 0x00000000#32 + _ = _
  rw [Ideal.ofBits_zero_f32, zero_add]
  unfold wsum
  exact Finset.sum_congr rfl fun j _ => congrArg x (funext fun a => Fin.ext (by match a with | ⟨0, _⟩ => rfl | ⟨1, _⟩ => rfl))

/-- A rank-1 index is its one coordinate, so a sum over the indices is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of the bias over its one axis from zero is `bsum`. -/
theorem biasSum_apply (x : S256.Idx → EReal) (j0 : S_.Idx) :
    Host.reduceAdd (F := Ideal) (φ := .f32) x (constant S_ .f32 0x00000000#32) reducesTo_S256_S_d0 h_S_ j0 = bsum x := by
  simp only [Host.reduceAdd, Ideal.hostReduceAdd_def]
  rw [Ideal.hostReduceAdd_total reducesTo_S256_S_d0 (fun b => b.elim0)]
  show Ideal.ofBits .f32 0x00000000#32 + _ = _
  rw [Ideal.ofBits_zero_f32, zero_add]
  unfold bsum
  exact sum_idx1 x

set_option maxHeartbeats 2000000 in
/-- The weight tile as the grid finds it: the column sums reshaped 256 → 16×16 → 1×16×1×16, spread to 8×16×512×16,
    reshaped to 128×8192. -/
theorem tile_eq (c : Dev nD) :
    (V m c main_v6 : S128x8192.Idx → EReal)
      = shapeCast S128x8192 (broadcastInDim S8x16x512x16 ![0, 1, 2, 3] bcast_S1x16x1x16_S8x16x512x16_0_1_2_3
          (shapeCast S1x16x1x16 (shapeCast S16x16
            (Host.reduceAdd (F := Ideal) (φ := .f32) (m ((c : Thread nD τ).loc main_arg1)) (constant S_ .f32 0x00000000#32) reducesTo_S256x256_S256_d0 h_S_)
            shapeCasts_S256_S16x16) shapeCasts_S16x16_S1x16x1x16)) shapeCasts_S8x16x512x16_S128x8192 := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
/-- The summed bias as the grid finds it. -/
theorem bias11_eq (c : Dev nD) :
    (V m c main_v2 : S1x1.Idx → EReal)
      = shapeCast S1x1 (Host.reduceAdd (F := Ideal) (φ := .f32) (m ((c : Thread nD τ).loc main_arg2)) (constant S_ .f32 0x00000000#32) reducesTo_S256_S_d0 h_S_)
          shapeCasts_S_S1x1 := by
  dsimp only [V]
  simp only [hostOps0, hostOps0_1, hostOps0_2, hostOps0_3, hostOps0_4, List.flatten_cons, List.flatten_nil, List.append_nil, List.cons_append, List.nil_append]
  after_results_simp
  rfl

/-- Entry (r, c) of the weight tile is the column sum at position 16·(r%16) + c%16 of a flattened patch. -/
theorem tile_apply (c : Dev nD) (r : Fin 128) (cc : Fin 8192) :
    (V m c main_v6 : S128x8192.Idx → EReal) (ix2 r cc) = wsum (m ((c : Thread nD τ).loc main_arg1)) (tilePos r cc) := by
  have hr : r.val < 128 := r.isLt
  have hc : cc.val < 8192 := cc.isLt
  rw [tile_eq]
  refine (shapeCast_apply _ shapeCasts_S8x16x512x16_S128x8192 (ix2 r cc)
    (ix4 (⟨r.val / 16, by omega⟩ : Fin 8) (⟨r.val % 16, by omega⟩ : Fin 16) (⟨cc.val / 16, by omega⟩ : Fin 512) (⟨cc.val % 16, by omega⟩ : Fin 16))
    (by rewrite [Shape.rowMajor_val_four, Shape.rowMajor_val_two]
        show ((r.val / 16 * 16 + r.val % 16) * 512 + cc.val / 16) * 16 + cc.val % 16 = r.val * 8192 + cc.val
        omega)).trans ?_
  refine (broadcastInDim_apply _ bcast_S1x16x1x16_S8x16x512x16_0_1_2_3 _ _
    (ix4 (0 : Fin 1) (⟨r.val % 16, by omega⟩ : Fin 16) (0 : Fin 1) (⟨cc.val % 16, by omega⟩ : Fin 16)) (fun a => by
      match a with
      | ⟨0, _⟩ => show 0 = if (1 : ℕ) = 1 then 0 else r.val / 16; rw [if_pos rfl]
      | ⟨1, _⟩ => show r.val % 16 = if (16 : ℕ) = 1 then 0 else r.val % 16; rw [if_neg (by decide)]
      | ⟨2, _⟩ => show 0 = if (1 : ℕ) = 1 then 0 else cc.val / 16; rw [if_pos rfl]
      | ⟨3, _⟩ => show cc.val % 16 = if (16 : ℕ) = 1 then 0 else cc.val % 16; rw [if_neg (by decide)])).trans ?_
  refine (shapeCast_apply _ shapeCasts_S16x16_S1x16x1x16 _
    (ix2 (⟨r.val % 16, by omega⟩ : Fin 16) (⟨cc.val % 16, by omega⟩ : Fin 16))
    (by rewrite [Shape.rowMajor_val_two, Shape.rowMajor_val_four]
        show r.val % 16 * 16 + cc.val % 16 = ((0 * 16 + r.val % 16) * 1 + 0) * 16 + cc.val % 16
        omega)).trans ?_
  refine (shapeCast_apply _ shapeCasts_S256_S16x16 _ (ix1 (tilePos r cc))
    (by rewrite [Shape.rowMajor_val_one, Shape.rowMajor_val_two]
        show r.val % 16 * 16 + cc.val % 16 = r.val % 16 * 16 + cc.val % 16
        rfl)).trans ?_
  exact colSums_apply _ _

/-- The one entry of the summed bias. -/
theorem bias11_apply (c : Dev nD) :
    (V m c main_v2 : S1x1.Idx → EReal) (ix2 (0 : Fin 1) (0 : Fin 1)) = bsum (m ((c : Thread nD τ).loc main_arg2)) := by
  rw [bias11_eq]
  refine (shapeCast_apply _ shapeCasts_S_S1x1 (ix2 (0 : Fin 1) (0 : Fin 1)) ix0
    (by rewrite [Shape.rowMajor_val_two]
        exact Nat.lt_one_iff.mp (Shape.rowMajor S_ ix0).isLt)).trans ?_
  exact biasSum_apply _ _

end Cert.KernelIdeal.Hand

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.Payload.lean ====
/-
  The kernel body's stored value at an entry. With x the image rows of the step, wt the tiled column sums, g and l
  the two 0/1 selector matrices and bs the 1×1 summed bias, the body computes l · ((x ∘ wt) · g) + bs (∘ entrywise,
  · matrix products into zero accumulators; the changes of float format are the identity on exact values). So entry
  (p, q) is ∑_r l(p,r) · (∑_c (x(r,c)·wt(r,c)) · g(c,q)) + bs(0,0).
-/
import proofs.«176076_j2439541424746_2_alg».proof.Proof.Gen.KernelIdeal.Skeleton
import proofs.«176076_j2439541424746_2_alg».proof.Proof.LibMatmul
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Idealize.ShloMosaic.MatmulRead
open scoped BigOperators

/-- The 1×1 block spread over the 8×512 tile reads its one entry everywhere. -/
theorem spread_apply (v : Vec Ideal S1x1 .f32) (p : Fin 8) (q : Fin 512) :
    broadcastTo S8x512 v broadcasts_S1x1_S8x512 (ix2 p q) = v (ix2 (0 : Fin 1) (0 : Fin 1)) :=
  broadcastTo_apply v broadcasts_S1x1_S8x512 (ix2 p q) (ix2 (0 : Fin 1) (0 : Fin 1)) fun a => by
    match a with
    | ⟨0, _⟩ => rfl
    | ⟨1, _⟩ => rfl

theorem pay_apply (x0 x1 : Vec Ideal S128x8192 .f32) (x2 : Vec Ideal S8192x512 .bf16) (x3 : Vec Ideal S8x128 .bf16)
    (x4 : Vec Ideal S1x1 .f32) (p : Fin 8) (q : Fin 512) :
    (k0_pay1 (F := Ideal) x0 x1 x2 x3 x4 (ix2 p q) : EReal)
      = (∑ r : Fin 128, (x3 (ix2 p r) : EReal) * ∑ c : Fin 8192, ((x0 (ix2 r c) : EReal) * (x1 (ix2 r c) : EReal)) * (x2 (ix2 c q) : EReal))
        + (x4 (ix2 (0 : Fin 1) (0 : Fin 1)) : EReal) := by
  unfold k0_pay1
  simp only [shapeCast_self]
  refine congrArg₂ (· + ·) ?_ (spread_apply x4 p q)
  refine (matmul_zero_apply [1] [0] [0] [1] [] [] rfl rfl rfl rfl rfl rfl dot_S8x128_S128x512_S8x512_1_0_0_1_n_n.wf none x3 _ (ix2 p q)).trans ?_
  refine Finset.sum_congr rfl fun r _ => congrArg ((x3 (ix2 p r) : EReal) * ·) ?_
  exact matmul_zero_apply (φ₁ := .bf16) (φ₂ := .bf16) [1] [0] [0] [1] [] [] rfl rfl rfl rfl rfl rfl
    dot_S128x8192_S8192x512_S128x512_1_0_0_1_n_n.wf none (truncf .bf16 (mulf x0 x1) bitsLt_bf16_f32) x2 (ix2 r q)

end Cert.KernelIdeal.Hand

end
-- ==== Proof.KernelValue.lean ====
/-
  The kernel's result array is `pooled` of the three arguments.

  The grid has 64 steps. Step t reads image rows 128t … 128t+127 whole (window 0), the four host-prepared arrays
  whole (windows 1–4: their block index is (0, 0) at every step), and writes rows 8t … 8t+7 of the 512×512 result
  (window 5). By the body's stored value (`pay_apply`), the block reads below and `block_entry`, what step t writes
  back is rows 8t … 8t+7 of `pooled`; the 64 row blocks cover the result (row a is written by step a/8).
-/
import proofs.«176076_j2439541424746_2_alg».proof.Proof.Gen.KernelIdeal.Value
import proofs.«176076_j2439541424746_2_alg».proof.Proof.HostArrays
import proofs.«176076_j2439541424746_2_alg».proof.Proof.Payload
import proofs.«176076_j2439541424746_2_alg».proof.Proof.PoolBlock
import Idealize.ShloMosaic.Lib.Pipeline.Value
import Idealize.ShloMosaic.Lib.Tactic

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.PatchSum
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- A grid point as a number below 64. -/
abbrev step (t : Fin cfg0.N) : Fin 64 := ⟨t.val, Nat.lt_of_lt_of_eq t.isLt (show cfg0.N = 64 from N_0)⟩

/-- Where each window's block sits at step t: the image and the result move down one block per step, the
    host-prepared arrays stay (decided over the 64 steps). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks the body reads -/

/-- Step t's image block is image rows 128t … 128t+127. -/
theorem imgBlk_apply (c : Dev nD) (t : Fin cfg0.N) (r : Fin 128) (cc : Fin 8192) :
    ((iblk m c 0 t : Vec Ideal S128x8192 .f32) (ix2 r cc) : EReal)
      = (m ((c : Thread nD τ).loc main_arg0) : S8192x8192.Idx → EReal) (ix2 (stepRow (step t) r) cc) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 128 + 1 * r.val = 128 * t.val + r.val; rw [e0]; omega
  | ⟨1, _⟩ => show win0_0.index t (1 : Fin 2) * 8192 + 1 * cc.val = cc.val; rw [e1]; omega

/-- The weight tile's block is the whole tile. -/
theorem tileBlk_apply (c : Dev nD) (t : Fin cfg0.N) (r : Fin 128) (cc : Fin 8192) :
    ((iblk m c 1 t : Vec Ideal S128x8192 .f32) (ix2 r cc) : EReal) = (V m c main_v6 : S128x8192.Idx → EReal) (ix2 r cc) := by
  obtain ⟨-, -, e0, e1, -⟩ := idx_facts t
  unfold iblk
  rw [View.read_apply]
  show V m c main_v6 _ = _
  refine congrArg _ (funext fun a => Fin.ext ?_)
  match a with
  | ⟨0, _⟩ => show win0_1.index t (0 : Fin 2) * 128 + 1 * r.val = r.val; rw [e0]; omega
  | ⟨1, _⟩ => show win0_1.index t (1 : Fin 2) * 8192 + 1 * cc.val = cc.val; rw [e1]; omega

/-- The column selector's block is the whole selector. -/
theorem colSelBlk_apply (c : Dev nD) (t : Fin cfg0.N) (cc : Fin 8192) (q : Fin 512) :
    ((iblk m c 2 t : Vec Ideal S8192x512 .bf16) (ix2 cc q) : EReal) = (V m c main_v11 : S8192x512.Idx → EReal) (ix2 cc q) := by
  obtain ⟨-, -, -, -, e0, e1, -⟩ := idx_facts t
  unfold iblk
  rw [View.read_apply]
  show V m c main_v11 _ = _
  refine congrArg _ (funext fun a => Fin.ext ?_)
  match a with
  | ⟨0, _⟩ => show win0_2.index t (0 : Fin 2) * 8192 + 1 * cc.val = cc.val; rw [e0]; omega
  | ⟨1, _⟩ => show win0_2.index t (1 : Fin 2) * 512 + 1 * q.val = q.val; rw [e1]; omega

/-- The row selector's block is the whole selector. -/
theorem rowSelBlk_apply (c : Dev nD) (t : Fin cfg0.N) (p : Fin 8) (r : Fin 128) :
    ((iblk m c 3 t : Vec Ideal S8x128 .bf16) (ix2 p r) : EReal) = (V m c main_v16 : S8x128.Idx → EReal) (ix2 p r) := by
  obtain ⟨-, -, -, -, -, -, e0, e1, -⟩ := idx_facts t
  unfold iblk
  rw [View.read_apply]
  show V m c main_v16 _ = _
  refine congrArg _ (funext fun a => Fin.ext ?_)
  match a with
  | ⟨0, _⟩ => show win0_3.index t (0 : Fin 2) * 8 + 1 * p.val = p.val; rw [e0]; omega
  | ⟨1, _⟩ => show win0_3.index t (1 : Fin 2) * 128 + 1 * r.val = r.val; rw [e1]; omega

/-- The summed bias's block is its one entry. -/
theorem biasBlk_apply (c : Dev nD) (t : Fin cfg0.N) :
    ((iblk m c 4 t : Vec Ideal S1x1 .f32) (ix2 (0 : Fin 1) (0 : Fin 1)) : EReal)
      = (V m c main_v2 : S1x1.Idx → EReal) (ix2 (0 : Fin 1) (0 : Fin 1)) := by
  obtain ⟨-, -, -, -, -, -, -, -, e0, e1, -⟩ := idx_facts t
  unfold iblk
  rw [View.read_apply]
  show V m c main_v2 _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 1 + 1 * 0 = 0; rw [e1]

/-! ## What a step writes back -/

/-- Entry (p, q) of step t's result block is entry (8t + p, q) of the result. -/
theorem outBlk_emb (t : Fin cfg0.N) (p : Fin 8) (q : Fin 512) :
    ((cfg0.win 5).blk t).view.emb (ix2 p q) = ix2 (stepPatch (step t) p) q := by
  obtain ⟨-, -, -, -, -, -, -, -, -, -, e0, e1⟩ := idx_facts t
  refine funext fun a => Fin.ext ?_
  match a with
  | ⟨0, _⟩ => show win0_5.index t (0 : Fin 2) * 8 + 1 * p.val = 8 * t.val + p.val; rw [e0]; omega
  | ⟨1, _⟩ => show win0_5.index t (1 : Fin 2) * 512 + 1 * q.val = q.val; rw [e1]; omega

/-- STEP t WRITES BACK rows 8t … 8t+7 of `pooled`. -/
theorem flushed_eq (c : Dev nD) (t : Fin cfg0.N) :
    (dats m 0 c).flushed 5 t = ((cfg0.win 5).blk t).view.read (Elt Ideal)
      (pooled (m ((c : Thread nD τ).loc main_arg0)) (m ((c : Thread nD τ).loc main_arg1)) (m ((c : Thread nD τ).loc main_arg2))) := by
  rw [flushed5]
  unfold out0_5
  rw [View.canon_unit_zero hz]
  simp only [View.ld_unit_zero (S := S128x8192) hz, View.ld_unit_zero (S := S8192x512) hz, View.ld_unit_zero (S := S8x128) hz,
    View.ld_unit_zero (S := S1x1) hz]
  refine funext fun (y : S8x512.Idx) => ?_
  obtain ⟨p, q, rfl⟩ : ∃ (p : Fin 8) (q : Fin 512), y = ix2 p q := ⟨y 0, y 1, eq_ix2 y⟩
  show (k0_pay1 (F := Ideal) (iblk m c 0 t) (iblk m c 1 t) (iblk m c 2 t) (iblk m c 3 t) (iblk m c 4 t) (ix2 p q) : EReal)
    = pooled _ _ _ (((cfg0.win 5).blk t).view.emb (ix2 p q))
  rw [outBlk_emb t p q]
  refine (pay_apply (iblk m c 0 t) (iblk m c 1 t) (iblk m c 2 t) (iblk m c 3 t) (iblk m c 4 t) p q).trans ?_
  exact block_entry _ _ _ (step t) p q
    (fun r cc => ((iblk m c 0 t : Vec Ideal S128x8192 .f32) (ix2 r cc) : EReal))
    (fun r cc => ((iblk m c 1 t : Vec Ideal S128x8192 .f32) (ix2 r cc) : EReal))
    (fun r => ((iblk m c 3 t : Vec Ideal S8x128 .bf16) (ix2 p r) : EReal))
    (fun cc => ((iblk m c 2 t : Vec Ideal S8192x512 .bf16) (ix2 cc q) : EReal))
    ((iblk m c 4 t : Vec Ideal S1x1 .f32) (ix2 (0 : Fin 1) (0 : Fin 1)) : EReal)
    (fun r cc => imgBlk_apply m c t r cc)
    (fun r cc => (tileBlk_apply m c t r cc).trans (tile_apply m c r cc))
    (fun r => (rowSelBlk_apply m c t p r).trans (rowSel_apply m c p r))
    (fun cc => (colSelBlk_apply m c t cc q).trans (colSel_apply m c cc q))
    ((biasBlk_apply m c t).trans (bias11_apply m c))

/-! ## The blocks cover the result -/

/-- An entry of the result is in step t's block iff its coordinates are in the block's ranges. -/
theorem mem_outBlk (t : Fin cfg0.N) (i : S512x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v17).slice (win0_5.rect t)).set ↔ _
  rw [View.set_slice_whole, Rect.mem_set_unit]
  exact Iff.rfl

/-- Row a of the result is written by step a/8. -/
theorem cover (i : S512x512.Idx) : ∃ t : Fin cfg0.N, (cfg0.win 5).flush t = true ∧ i ∈ ((cfg0.win 5).blk t).view.set := by
  have hi0 : (i 0).val < 512 := (i 0).isLt
  have hi1 : (i 1).val < 512 := (i 1).isLt
  have hN : cfg0.N = 64 := N_0
  refine ⟨⟨(i 0).val / 8, by rw [hN]; omega⟩, flush0_5 _, ?_⟩
  obtain ⟨-, -, -, -, -, -, -, -, -, -, e0, e1⟩ := idx_facts ⟨(i 0).val / 8, by rw [hN]; omega⟩
  rw [mem_outBlk]
  intro a
  match a with
  | ⟨0, _⟩ =>
    show win0_5.index _ (0 : Fin 2) * 8 ≤ (i 0).val ∧ (i 0).val < win0_5.index _ (0 : Fin 2) * 8 + 8
    rw [e0]
    show (i 0).val / 8 * 8 ≤ (i 0).val ∧ (i 0).val < (i 0).val / 8 * 8 + 8
    omega
  | ⟨1, _⟩ =>
    show win0_5.index _ (1 : Fin 2) * 512 ≤ (i 1).val ∧ (i 1).val < win0_5.index _ (1 : Fin 2) * 512 + 512
    rw [e1]
    omega

/-- THE RESULT ARRAY after the run is `pooled` of the arguments. -/
theorem final (c : Dev nD) : (dats m 0 c).arrAt 5 cfg0.N
    = pooled (m ((c : Thread nD τ).loc main_arg0)) (m ((c : Thread nD τ).loc main_arg1)) (m ((c : Thread nD τ).loc main_arg2)) :=
  (dats m 0 c).arrAt_eq_of_cover 5 _ (fun t _ => flushed_eq m c t) cover

/-- The kernel's run: it terminates with the result at `pooled` of the arguments and the arguments unchanged. -/
theorem run : θ_run defs (onTc (τ := τ) (main (F := Ideal))) ⟨m, fun _ => 0, ρ⟩ fun r => ∀ c : Dev nD,
      r.2.mem ((c : Thread nD τ).loc main_v17)
        = pooled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.RefIsSpec.lean ====
/-
  The reference computes `linearSum`: reshaped to [512,16,512,16], transposed to [512,512,16,16] and flattened to
  [262144,256], row 512a + b of the patch matrix is patch (a, b) flattened row-major, so its entry k is
  d(16a + k/16, 16b + k%16); the product with the transposed weight has entry (p, j) = ∑ₖ patch_p(k)·W(j,k); the bias is
  added along j, the row is summed over j from zero, and row 512a + b lands at (a, b) of the [512,512] result.
  Each layout step is one equation between index functions, checked coordinate by coordinate.
-/
import proofs.«176076_j2439541424746_2_alg».proof.Proof.Gen.ReferenceIdeal.Read
import proofs.«176076_j2439541424746_2_alg».proof.Proof.Spec

noncomputable section

namespace Cert.ReferenceIdeal.RefValue

open Cert.ReferenceIdeal Cert.ReferenceIdeal.Read Idealize.ShloMosaic Idealize.ShloMosaic.ValueIdx
open Idealize.ShloMosaic.GroupSum Cert.PatchSum
open scoped BigOperators

/-- Row 512a + b of the patch matrix. -/
abbrev prow (a b : Fin 512) : Fin 262144 :=
  ⟨a.val * 512 + b.val, by have h0 : a.val < 512 := a.isLt; have h1 : b.val < 512 := b.isLt; omega⟩

/-- Result entry (a, b) is the sum along row 512a + b; its term j sits at (512a + b, j). -/
theorem e_row (a b : Fin 512) (j : Fin 256) : idx_main_v8 (idx_main_v9 (ix2 a b)) j = ix2 (prow a b) j :=
  funext fun x => Fin.ext (by match x with | ⟨0, _⟩ => rfl | ⟨1, _⟩ => rfl)

/-- The product's entry (p, j) contracts row p of the patches with column j of the transposed weight. -/
theorem e_lhs (p : Fin 262144) (j k : Fin 256) : lidx_main_v4 (ix2 p j) k = ix2 p k :=
  funext fun a => Fin.ext (by match a with | ⟨0, _⟩ => rfl | ⟨1, _⟩ => rfl)
theorem e_rhs (p : Fin 262144) (j k : Fin 256) : ridx_main_v4 (ix2 p j) k = ix2 k j :=
  funext fun a => Fin.ext (by match a with | ⟨0, _⟩ => rfl | ⟨1, _⟩ => rfl)

/-- The transposed weight at (k, j) is the weight at (j, k). -/
theorem e_wT (j k : Fin 256) : idx_main_v3 (ix2 k j) = ix2 j k :=
  funext fun a => Fin.ext (by match a with | ⟨0, _⟩ => rfl | ⟨1, _⟩ => rfl)

/-- Entry k of row 512a + b of the patch matrix is (a, b, k/16, k%16) of the [512,512,16,16] array. -/
theorem e_flatten (a b : Fin 512) (k : Fin 256) : idx_main_v2 (ix2 (prow a b) k) = ix4 a b (rowOf k) (colOf k) := by
  have h0 : a.val < 512 := a.isLt
  have h1 : b.val < 512 := b.isLt
  have hk : k.val < 256 := k.isLt
  refine funext fun x => Fin.ext ?_
  match x with
  | ⟨0, _⟩ => show ((a.val * 512 + b.val) * 256 + k.val) / 131072 = a.val; omega
  | ⟨1, _⟩ => show ((a.val * 512 + b.val) * 256 + k.val) / 256 % 512 = b.val; omega
  | ⟨2, _⟩ => show ((a.val * 512 + b.val) * 256 + k.val) / 16 % 16 = k.val / 16; omega
  | ⟨3, _⟩ => show ((a.val * 512 + b.val) * 256 + k.val) % 16 = k.val % 16; omega

/-- The transpose swaps the two middle axes. -/
theorem e_swap (a b : Fin 512) (r s : Fin 16) : idx_main_v1 (ix4 a b r s) = ix4 a r b s :=
  funext fun x => Fin.ext (by match x with | ⟨0, _⟩ => rfl | ⟨1, _⟩ => rfl | ⟨2, _⟩ => rfl | ⟨3, _⟩ => rfl)

/-- (a, r, b, s) of the image reshaped to [512,16,512,16] is the image at (16a + r, 16b + s). -/
theorem e_split (a b : Fin 512) (r s : Fin 16) : idx_main_v0 (ix4 a r b s) = ix2 (line a r) (line b s) := by
  have ha : a.val < 512 := a.isLt
  have hb : b.val < 512 := b.isLt
  have hr : r.val < 16 := r.isLt
  have hs : s.val < 16 := s.isLt
  refine funext fun x => Fin.ext ?_
  match x with
  | ⟨0, _⟩ => show (((a.val * 16 + r.val) * 512 + b.val) * 16 + s.val) / 8192 = a.val * 16 + r.val; omega
  | ⟨1, _⟩ => show (((a.val * 16 + r.val) * 512 + b.val) * 16 + s.val) % 8192 = b.val * 16 + s.val; omega

/-- The bias broadcast down the rows: entry (p, j) is β_j. -/
theorem e_bias (p : Fin 262144) (j : Fin 256) : idx_main_v5 (idx_main_v6 (ix2 p j)) = ix1 j :=
  funext fun a => Fin.ext (by match a with | ⟨0, _⟩ => rfl)

/-- THE REFERENCE'S RESULT, index by index, is `linearSum` of its three arguments. -/
theorem ref_eq_linearSum (x0 : (⟨S8192x8192, .f32⟩ : BufTy).Contents (Elt Ideal)) (x1 : (⟨S256x256, .f32⟩ : BufTy).Contents (Elt Ideal))
    (x2 : (⟨S256, .f32⟩ : BufTy).Contents (Elt Ideal)) :
    val_main_v9 (F := Ideal) x0 x1 x2 = linearSum x0 x1 x2 := by
  funext i
  obtain ⟨a, b, rfl⟩ : ∃ (a b : Fin 512), i = ix2 a b := ⟨i 0, i 1, eq_ix2 i⟩
  simp only [val_main_v9_apply, val_main_v8_apply, val_main_v7_apply, val_main_cst_apply, val_main_v4_apply,
    val_main_v2_apply, val_main_v1_apply, val_main_v0_apply, val_main_v3_apply, val_main_v6_apply, val_main_v5_apply,
    e_row, e_lhs, e_rhs, e_wT, e_flatten, e_swap, e_split, e_bias, Ideal.ofBits_def, Ideal.ofBits_zero_f32, zero_add,
    Ideal.addf_def]
  rfl

end Cert.ReferenceIdeal.RefValue

end
-- ==== Proof.FiniteInputs.lean ====
/-
  What the precondition gives: it is the conjunction of three tests "every entry's absolute value is below +∞",
  one per input. An extended real whose absolute value max(x, −x) is below +∞ is neither +∞ nor −∞, so the image and
  the weight (the two inputs whose finiteness the proof uses) consist of real numbers.
-/
import proofs.«176076_j2439541424746_2_alg».proof.Pre_finite_inputs
import proofs.«176076_j2439541424746_2_alg».proof.Proof.Spec
import Idealize.ShloMosaic.Lib.ReduceAll
import Idealize.ShloMosaic.Lib.ValueIdx
import Idealize.ShloMosaic.PureOps.Ideal.Laws

noncomputable section

namespace Cert.Proof.FiniteInputs

open Idealize.ShloMosaic Idealize.ShloMosaic.ValueIdx Cert.PatchSum

/-- The word 0x7F800000 is +∞. -/
theorem ofBits_inf : Ideal.ofBits .f32 0x7F800000#32 = ⊤ := by simp [Ideal.ofBits, Ideal.ieee]

/-- |x| < +∞ makes x a real number. -/
theorem finite_of_abs_lt_inf (x : EReal)
    (h : FloatOps.cmpf (F := Ideal) (φ := .f32) .olt (FloatOps.hostAbsf x) (FloatOps.ofBits .f32 0x7F800000#32) = 1#1) :
    x ≠ ⊤ ∧ x ≠ ⊥ := by
  have h' : Ideal.cmp .olt (max x (-x)) ⊤ = 1#1 := by rw [← ofBits_inf]; exact h
  have hlt : max x (-x) < ⊤ := by
    by_contra hn
    have h0 : Ideal.cmp .olt (max x (-x)) ⊤ = 0#1 := by
      unfold Ideal.cmp
      simp only [decide_eq_false hn]
      rfl
    rw [h0] at h'
    exact absurd h' (by decide)
  constructor
  · rintro rfl
    simp at hlt
  · rintro rfl
    simp at hlt

/-- Under the precondition the image and the weight are finite. -/
theorem finite_of_pre [Cert.Pre_finite_inputs.Facts] (x0 : FVec Ideal Cert.Pre_finite_inputs.S8192x8192 .f32)
    (x1 : FVec Ideal Cert.Pre_finite_inputs.S256x256 .f32) (x2 : FVec Ideal Cert.Pre_finite_inputs.S256 .f32)
    (h : Cert.Pre_finite_inputs.fn (F := Ideal) x0 x1 x2 = fun _ => 1#1) : Finite x0 ∧ Finite x1 := by
  have h0 := congrFun h ix0
  dsimp only [Cert.Pre_finite_inputs.fn] at h0
  obtain ⟨h8, -⟩ := IntOp.andi_eq_one.mp h0
  obtain ⟨h3, h7⟩ := IntOp.andi_eq_one.mp h8
  haveI : Subsingleton Cert.Pre_finite_inputs.S_.Idx := ⟨fun a b => funext fun d => d.elim0⟩
  exact ⟨fun i => finite_of_abs_lt_inf _ (Host.reduce_andi_all _ _ _ _ ix0 h3 i),
    fun i => finite_of_abs_lt_inf _ (Host.reduce_andi_all _ _ _ _ ix0 h7 i)⟩

end Cert.Proof.FiniteInputs

end
-- ==== Proof.lean ====
/-
  A 16×16-patch linear layer summed over its outputs, computed two ways.

  The reference cuts the 8192×8192 image into 512×512 patches of 16×16, flattens each to a vector x of 256 entries,
  applies y = x·Wᵀ + β (W is 256×256, β has 256 entries) and returns ∑ⱼ y_j per patch: `linearSum`.

  The kernel sums over the outputs first: ∑ⱼ y_j = ∑ₖ xₖ·(∑ⱼ W(j,k)) + ∑ⱼ β_j. The host forms the column sums of W, lays
  them out periodically over a 128×8192 tile, forms the summed bias, and two 0/1 matrices that pick the sixteen rows
  of a patch-row and the sixteen columns of a patch-column; each of the 64 grid steps multiplies its 128 image rows
  entrywise by the tile and contracts with the two selectors, which adds the products up patch by patch: `pooled`.

  The two are equal for finite image and weight: x·(∑ⱼ W(j,k)) = ∑ⱼ x·W(j,k) is distributivity, which fails on the
  extended reals at ±∞, so the precondition (every input entry finite) is used exactly there (`pooled_eq_linearSum`).
  The changes of float format in the kernel are the identity on exact values, and the matrix products and
  reductions are plain sums, so nothing else separates the two sides.

  The three frame claims are the generated frames (the reference's from its generated run); the kernel's idealization
  rewrote no operation, so `preserves` has nothing to state.
-/
import proofs.«176076_j2439541424746_2_alg».proof.Defs
import proofs.«176076_j2439541424746_2_alg».proof.Proof.Gen.Kernel
import proofs.«176076_j2439541424746_2_alg».proof.Proof.Gen.Kernel.Skeleton
import proofs.«176076_j2439541424746_2_alg».proof.Proof.Gen.Kernel.Launch
import proofs.«176076_j2439541424746_2_alg».proof.Proof.Gen.Kernel.Points
import proofs.«176076_j2439541424746_2_alg».proof.Proof.Gen.Kernel.Frame
import proofs.«176076_j2439541424746_2_alg».proof.Proof.Gen.KernelIdeal
import proofs.«176076_j2439541424746_2_alg».proof.Proof.Gen.KernelIdeal.Skeleton
import proofs.«176076_j2439541424746_2_alg».proof.Proof.Gen.KernelIdeal.Launch
import proofs.«176076_j2439541424746_2_alg».proof.Proof.Gen.KernelIdeal.Points
import proofs.«176076_j2439541424746_2_alg».proof.Proof.Gen.KernelIdeal.Frame
import proofs.«176076_j2439541424746_2_alg».proof.Proof.Gen.ReferenceIdeal
import proofs.«176076_j2439541424746_2_alg».proof.Proof.Gen.Pre_finite_inputs
import proofs.«176076_j2439541424746_2_alg».proof.Proof.Gen.KernelIdeal.Value
import proofs.«176076_j2439541424746_2_alg».proof.Proof.Gen.ReferenceIdeal.Run
import proofs.«176076_j2439541424746_2_alg».proof.Proof.Gen.ReferenceIdeal.Read
import proofs.«176076_j2439541424746_2_alg».proof.Proof.KernelValue
import proofs.«176076_j2439541424746_2_alg».proof.Proof.RefIsSpec
import proofs.«176076_j2439541424746_2_alg».proof.Proof.FiniteInputs
import Idealize.ShloMosaic.Adequacy
import Idealize.ShloMosaic.Init

noncomputable section

namespace Cert.Proof

open Idealize.ShloMosaic Idealize.SL.Sem Cert.PatchSum

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at `pooled` of the kernel's arguments: the kernel by its run, the reference
    because its result is `linearSum` of arguments that agree with the kernel's, and the two functions coincide on
    finite image and weight. -/
theorem algebraic : Cert.algebraic_KernelIdeal_ReferenceIdeal := by
  intro m ρ m' ρ' hpre hagree
  refine ⟨fun c => pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq_linearSum, (hagree c).1, (hagree c).2.1,
    (hagree c).2.2]
  obtain ⟨hd, hw⟩ := Cert.Proof.FiniteInputs.finite_of_pre _ _ _ (hpre c)
  exact (pooled_eq_linearSum _ _ _ hd hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
